-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S2x800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S2x800000 : Shape := ⟨2, ![2, 800000]⟩
abbrev S5000x64 : Shape := ⟨2, ![5000, 64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩

abbrev nBuf : Space → Nat
  | .hbm => 65
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x800000, .i32⟩
  | .hbm, ⟨4, _⟩ => ⟨S64x64, .f32⟩
  | .hbm, ⟨5, _⟩ => ⟨S64x64, .bf16⟩
  | .hbm, ⟨6, _⟩ => ⟨S100000x64, .f32⟩
  | .hbm, ⟨7, _⟩ => ⟨S100000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S1x800000, .i32⟩
  | .hbm, ⟨12, _⟩ => ⟨S800000, .i32⟩
  | .hbm, ⟨13, _⟩ => ⟨S900000, .i32⟩
  | .hbm, ⟨14, _⟩ => ⟨S_, .f32⟩
  | .hbm, ⟨15, _⟩ => ⟨S900000, .f32⟩
  | .hbm, ⟨16, _⟩ => ⟨S_, .f32⟩
  | .hbm, ⟨17, _⟩ => ⟨S100000, .f32⟩
  | .hbm, ⟨18, _⟩ => ⟨S900000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S900000, .i32⟩
  | .hbm, ⟨30, _⟩ => ⟨S900000, .i1⟩
  | .hbm, ⟨31, _⟩ => ⟨S_, .i32⟩
  | .hbm, ⟨32, _⟩ => ⟨S900000, .i32⟩
  | .hbm, ⟨33, _⟩ => ⟨S900000, .i32⟩
  | .hbm, ⟨34, _⟩ => ⟨S900000, .i32⟩
  | .hbm, ⟨35, _⟩ => ⟨S900000x1, .i32⟩
  | .hbm, ⟨36, _⟩ => ⟨S900000, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000, .f32⟩
  | .hbm, ⟨46, _⟩ => ⟨S900000, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x64, .f32⟩
  | .hbm, ⟨56, _⟩ => ⟨S900000x1, .f32⟩
  | .hbm, ⟨57, _⟩ => ⟨S900000x64, .f32⟩
  | .hbm, ⟨58, _⟩ => ⟨S900000x64, .f32⟩
  | .hbm, ⟨59, _⟩ => ⟨S_, .f32⟩
  | .hbm, ⟨60, _⟩ => ⟨S100000x64, .f32⟩
  | .hbm, ⟨61, _⟩ => ⟨S900000x1, .i32⟩
  | .hbm, ⟨62, _⟩ => ⟨S100000x64, .f32⟩
  | .hbm, ⟨63, _⟩ => ⟨S1x64, .f32⟩
  | .hbm, ⟨64, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .bf16⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S64x64_S64x64_1_0 : S64x64.Transposes [1, 0] S64x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x800000 : Shape := ⟨2, ![2, 800000]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S2x800000, .i32⟩
  | .hbm, ⟨4, _⟩ => ⟨S64x64, .f32⟩
  | .hbm, ⟨5, _⟩ => ⟨S100000x64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S_, .i32⟩
  | .hbm, ⟨47, _⟩ => ⟨S900000, .i32⟩
  | .hbm, ⟨48, _⟩ => ⟨S900000, .i1⟩
  | .hbm, ⟨49, _⟩ => ⟨S_, .i32⟩
  | .hbm, ⟨50, _⟩ => ⟨S900000, .i32⟩
  | .hbm, ⟨51, _⟩ => ⟨S900000, .i32⟩
  | .hbm, ⟨52, _⟩ => ⟨S900000, .i32⟩
  | .hbm, ⟨53, _⟩ => ⟨S900000x1, .i32⟩
  | .hbm, ⟨54, _⟩ => ⟨S900000x64, .f32⟩
  | .hbm, ⟨55, _⟩ => ⟨S900000x1, .f32⟩
  | .hbm, ⟨56, _⟩ => ⟨S900000x64, .f32⟩
  | .hbm, ⟨57, _⟩ => ⟨S900000x64, .f32⟩
  | .hbm, ⟨58, _⟩ => ⟨S_, .f32⟩
  | .hbm, ⟨59, _⟩ => ⟨S100000x64, .f32⟩
  | .hbm, ⟨60, _⟩ => ⟨S900000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call1_cst : Ref sig .tc := ⟨.hbm, 66, rfl⟩
abbrev main_call1_v0 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  transposes_S64x64_S64x64_1_0 : S64x64.Transposes [1, 0] S64x64
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.AggR.lean ====
/-
  The graph aggregation between the linear transform and the bias / residual / rectifier, named as one function of
  the transformed features and the edge list, over the idealized reference's vocabulary: the same operations, in the
  same order, as the kernel's program applies on the host.
-/
import proofs.«113675_j52802327937707_1_alg».proof.Proof.Gen.ReferenceIdeal

set_option maxRecDepth 8192

noncomputable section

namespace Cert.ReferenceIdeal.Shared

open Cert.ReferenceIdeal Cert.ReferenceIdeal.Gen Idealize.ShloMosaic Idealize.ShloMosaic.TcCoe Idealize.SL.Sem Idealize.ShloMosaic.StableHlo

variable {F : FTy → Type} [FloatOps F]

/-- The normalized neighbourhood sum of a feature matrix `h` over the edge list `e` with a self-loop added at every
    node: with src = e[0] ++ (0 … n-1), dst = e[1] ++ (0 … n-1), deg the number of edges landing on each node, and
    dinv = deg^(-1/2) where deg > 0 and 0 elsewhere, row r of the result is the sum over the edges j with dst j = r
    of h[src j] · dinv[src j] · dinv[dst j] — the host's operations on the two arrays, in the program's order. -/
def aggregate (h : (⟨S100000x64, .f32⟩ : BufTy).Contents (Elt F)) (e : (⟨S2x800000, .i32⟩ : BufTy).Contents (Elt F)) :
    (⟨S100000x64, .f32⟩ : BufTy).Contents (Elt F) :=
  Host.scatterAdd scatter_S100000x64_S900000x1_S900000x64_1_0_0_1 (broadcastInDim S100000x64 ![] bcast_S_S100000x64 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (mulf (Host.gather gather_S100000x64_S900000x1_S900000x64_1_0_n_n_0_1_164 h (broadcastInDim S900000x1 ![0] bcast_S900000_S900000x1_0 (select (cmpi .slt (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 0#32))) (addi (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 100000#32))) (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0)))) (broadcastInDim S900000x64 ![0, 1] bcast_S900000x1_S900000x64_0_1 (broadcastInDim S900000x1 ![0] bcast_S900000_S900000x1_0 (mulf (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32)))) (broadcastInDim S100000 ![] bcast_S_S100000 (id (constant S_ .f32 0x00000000#32)))) (broadcastInDim S900000x1 ![0] bcast_S900000_S900000x1_0 (select (cmpi .slt (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 0#32))) (addi (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 100000#32))) (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0)))) (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32)))) (broadcastInDim S100000 ![] bcast_S_S100000 (id (constant S_ .f32 0x00000000#32)))) (broadcastInDim S900000x1 ![0] bcast_S900000_S900000x1_0 (select (cmpi .slt (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0) (broadcastInDim S900000 ![] bcast_S_S900000 (constantI S_ 32 0#32))) (addi (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0) (broadcastInDim S900000 ![] bcast_S_S900000 (constantI S_ 32 100000#32))) (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0))))))))

end Cert.ReferenceIdeal.Shared

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.Spec.lean ====
/-
  The two dense pieces of the graph convolution, as functions of whole arrays.

  `linear x wt` is the product of the node features (100000 × 64) with the transposed weights (64 × 64): entry
  (i, j) is the sum over k of x (i, k) · wt (k, j).  `fused a x b` is the last step: the aggregated features plus
  the bias row plus the residual, then the rectifier, entry by entry: max ((a + b) + x, 0).
-/
import Idealize.ShloMosaic.Lib.ValueIdx
import Idealize.ShloMosaic.PureOps.Ideal.Laws

noncomputable section

open scoped BigOperators

namespace Cert.Spec

open Idealize.ShloMosaic Idealize.ShloMosaic.ValueIdx

/-- Node features times transposed weights: entry (i, j) is the dot product of row i of `x` with column j of `wt`. -/
def linear {φ : FTy} (x : FVec Ideal ⟨2, ![100000, 64]⟩ .f32) (wt : FVec Ideal ⟨2, ![64, 64]⟩ φ) :
    FVec Ideal ⟨2, ![100000, 64]⟩ .f32 :=
  fun i => ∑ k : Fin 64, x (ix2 (i 0) k) * wt (ix2 k (i 1))

theorem linear_apply {φ : FTy} (x : FVec Ideal ⟨2, ![100000, 64]⟩ .f32) (wt : FVec Ideal ⟨2, ![64, 64]⟩ φ)
    (i : Fin 100000) (j : Fin 64) : linear x wt (ix2 i j) = ∑ k : Fin 64, x (ix2 i k) * wt (ix2 k j) := rfl

/-- Aggregated features plus the bias row plus the residual, rectified: max ((a + b) + x, 0) at every entry. -/
def fused (a x : FVec Ideal ⟨2, ![100000, 64]⟩ .f32) (b : FVec Ideal ⟨2, ![1, 64]⟩ .f32) :
    FVec Ideal ⟨2, ![100000, 64]⟩ .f32 :=
  fun i => max (a i + b (ix2 (0 : Fin 1) (i 1)) + x i) (Ideal.ofBits .f32 0x00000000#32)

theorem fused_apply (a x : FVec Ideal ⟨2, ![100000, 64]⟩ .f32) (b : FVec Ideal ⟨2, ![1, 64]⟩ .f32)
    (i : Fin 100000) (j : Fin 64) :
    fused a x b (ix2 i j) = max (a (ix2 i j) + b (ix2 (0 : Fin 1) j) + x (ix2 i j)) (Ideal.ofBits .f32 0x00000000#32) := rfl

end Cert.Spec

end
-- ==== Proof.RefValue.lean ====
/-
  The reference's result, as the same functions of the arguments as the kernel's.

  The reference computes h = x · Wᵀ with one host matrix product, applies the same graph aggregation as the kernel's
  program, then adds the bias (broadcast along the rows) and the residual and rectifies. Read entry by entry this is
  `fused (aggregate (linear x Wᵀ) e) x b`: the host product at (i, j) is the sum over k of x (i, k) · Wᵀ (k, j), and the
  bias broadcast to the whole array reads, at (i, j), entry j of the bias — which is also what the bias viewed as a
  one-row matrix reads at (0, j).
-/
import proofs.«113675_j52802327937707_1_alg».proof.Proof.RefRun
import proofs.«113675_j52802327937707_1_alg».proof.Proof.AggR
import proofs.«113675_j52802327937707_1_alg».proof.Proof.LibHostDot
import proofs.«113675_j52802327937707_1_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen

/-- The host's matrix product of the features with the transposed weights is `linear`. -/
theorem dot_eq (X : FVec Ideal S100000x64 .f32) (WT : FVec Ideal S64x64 .f32) :
    Host.dotGeneral dot_S100000x64_S64x64_S100000x64_1_0_0_1_n_n none X WT = Spec.linear (φ := .f32) X WT := by
  funext i
  obtain ⟨p, q, rfl⟩ : ∃ (p : Fin 100000) (q : Fin 64), i = ix2 p q := ⟨i 0, i 1, eq_ix2 i⟩
  exact HostDot.dotGeneral_apply dot_S100000x64_S64x64_S100000x64_1_0_0_1_n_n rfl rfl rfl rfl rfl rfl none X WT p q

/-- The reference's last three steps — add the bias broadcast along the rows, add the residual, rectify — are `fused`
    with the bias viewed as a one-row matrix. -/
theorem tail_eq (A X : FVec Ideal S100000x64 .f32) (B : FVec Ideal S64 .f32) (hsc : S64.ShapeCasts S1x64) :
    maximumf (addf (addf A (broadcastInDim S100000x64 ![0, 1] bcast_S1x64_S100000x64_0_1 (broadcastInDim S1x64 ![1] bcast_S64_S1x64_1 B))) X)
        (broadcastInDim S100000x64 ![] bcast_S_S100000x64 (constant (F := Ideal) S_ .f32 0x00000000#32))
      = Spec.fused A X (shapeCast S1x64 B hsc) := by
  funext i
  obtain ⟨p, q, rfl⟩ : ∃ (p : Fin 100000) (q : Fin 64), i = ix2 p q := ⟨i 0, i 1, eq_ix2 i⟩
  rw [maximumf_apply, addf_apply, addf_apply, Spec.fused_apply, shapeCast_a_1a_apply,
    broadcastInDim_apply ![0, 1] bcast_S1x64_S100000x64_0_1 _ (ix2 p q) (ix2 (0 : Fin 1) q)
      (fun a => match a with | ⟨0, _⟩ => rfl | ⟨1, _⟩ => rfl),
    broadcastInDim_apply ![1] bcast_S64_S1x64_1 B (ix2 (0 : Fin 1) q) (ix1 q) (fun a => match a with | ⟨0, _⟩ => rfl),
    broadcastInDim_apply ![] bcast_S_S100000x64 _ (ix2 p q) ix0 (fun a => a.elim0)]
  rfl

variable (m : (ℓ : Loc nD τ sig) → Buf (Elt Ideal) ℓ)

/-- The reference run's result term is `fused (aggregate (linear x Wᵀ) e) x b` of the argument arrays. -/
theorem result_eq (c : Dev nD) (hsc : S64.ShapeCasts S1x64) :
    ValueP.res_main_v49 (F := Ideal) m c
      = Spec.fused
          (Shared.aggregate
            (Spec.linear (φ := .f32) (m ((c.tc : Thread nD τ).loc main_arg0))
              (transpose S64x64 [1, 0] (m ((c.tc : Thread nD τ).loc main_arg1)) transposes_S64x64_S64x64_1_0))
            (m ((c.tc : Thread nD τ).loc main_arg3)))
          (m ((c.tc : Thread nD τ).loc main_arg0))
          (shapeCast S1x64 (m ((c.tc : Thread nD τ).loc main_arg2)) hsc) := by
  rw [← dot_eq, ← tail_eq]
  unfold ValueP.res_main_v49 Shared.aggregate
  rfl

end Cert.ReferenceIdeal.RefValue

end
-- ==== Proof.KRun.lean ====
/-
  The idealized kernel's run with its RESULT named. The program is two kernel launches among stretches of host
  operations; the contents of the TensorCore's buffers at each boundary are a fold from the launch memory
  (`Gen.W1` … `Gen.W6`), and at the end every unscoped buffer holds what the last fold says. The frame theorem reads
  that final state at the four argument buffers only; here it is read at the result buffer as well, which is the
  second launch's output array after all of its write-backs: `(Gen.dat1 (Gen.V5 m ρ) c).arrAt 3 cfg1.N`.
-/
import proofs.«113675_j52802327937707_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second launch's window 3, so after that launch it holds the window's array as the
    write-backs leave it. -/
theorem W6_result (c : Dev nD) :
    W6 m ρ c (Proc.devRef .tc main_v47) = (dat1 (V5 m ρ) c).arrAt 3 cfg1.N :=
  W6_arr m ρ c 3

set_option backward.isDefEq.respectTransparency.types false in
/-- Every weakly fair execution of @main terminates, nothing faulting, with the result buffer at the second launch's
    output array after its write-backs and the argument buffers as launched. -/
theorem run : θ_run defs (onTc (τ := τ) (main (F := F))) ⟨m, fun _ => 0, ρ⟩ (fun r => ∀ c : Dev nD,
      r.2.mem ((c.tc : Thread nD τ).loc main_v47) = (dat1 (V5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v47 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Named

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.Payload.lean ====
/-
  What each kernel body stores, read at one entry of its block.

  The first body stores the product of its block of node features (5000 × 64, rounded to bf16, which changes nothing
  at the ideal values) with the resident 64 × 64 transposed weights, accumulated from zero: entry (p, q) is the sum
  over k of x (p, k) · wt (k, q).  The second stores, entry by entry, the aggregated block plus the bias row (one row
  broadcast over the block's 5000) plus the residual block, rectified.
-/
import proofs.«113675_j52802327937707_1_alg».proof.Proof.Gen.KernelIdeal.Skeleton
import proofs.«113675_j52802327937707_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The matrix product's entry (p, q): row p of the feature block against column q of the transposed weights. -/
theorem linear_at (x0 : Vec Ideal S5000x64 .f32) (x1 : Vec Ideal S64x64 .bf16) (p : Fin 5000) (q : Fin 64) :
    k0_pay1 (F := Ideal) x0 x1 (ix2 p q) = ∑ k : Fin 64, x0 (ix2 p k) * x1 (ix2 k q) := by
  unfold k0_pay1
  rw [shapeCast_self]
  exact PlainMatmul.matmul_zero_apply dot_S5000x64_S64x64_S5000x64_1_0_0_1_n_n rfl rfl rfl rfl rfl rfl none
    (truncf .bf16 x0 bitsLt_bf16_f32) x1 p q

/-- The fused step's entry (p, q): aggregated plus bias (row 0 of the one-row bias block) plus residual, rectified. -/
theorem fused_at (v0 : Vec Ideal S5000x64 .f32) (v2 : Vec Ideal S1x64 .f32) (v6 : Vec Ideal S5000x64 .f32)
    (p : Fin 5000) (q : Fin 64) :
    k1_pay1 (F := Ideal) v0 v2 v6 (ix2 p q)
      = max (v0 (ix2 p q) + v2 (ix2 (0 : Fin 1) q) + v6 (ix2 p q)) (Ideal.ofBits .f32 0x00000000#32) := by
  unfold k1_pay1
  rw [shapeCast_self, shapeCast_self, maximumf_apply, addf_apply, addf_apply, broadcastTo_1b_ab_apply, broadcast_apply]
  rfl

end Cert.KernelIdeal.Payload

end
-- ==== Proof.Linear.lean ====
/-
  The first launch: the linear transform, block by block.

  The grid has 20 points; point t multiplies rows 5000·t … 5000·t + 4999 of the node features by the resident
  64 × 64 transposed weights and writes the product back as the same rows of the output. Each write-back is therefore
  a block of ONE whole-array function, the product of the two arrays as the launch finds them, and the blocks tile the
  output: after the launch the output array is that product.
-/
import proofs.«113675_j52802327937707_1_alg».proof.Proof.Gen.KernelIdeal.Frame
import proofs.«113675_j52802327937707_1_alg».proof.Proof.Payload
import proofs.«113675_j52802327937707_1_alg».proof.Proof.Spec

set_option maxRecDepth 16384

noncomputable section

open scoped BigOperators

namespace Cert.KernelIdeal.Linear

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The first launch's index maps over its grid of 20 points: the feature window and the output window are at block
    row `t`, the weights' window stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A body's store at entry (p, q), when its feature block is rows r·5000 … r·5000 + 4999 of `X` and its weights block
    is all of `WT`, is entry (r·5000 + p, q) of the product `X · WT`. -/
theorem linear_block (X : FVec Ideal ⟨2, ![100000, 64]⟩ .f32) (WT : FVec Ideal ⟨2, ![64, 64]⟩ .bf16)
    (x0 : Vec Ideal S5000x64 .f32) (x1 : Vec Ideal S64x64 .bf16) (r : Nat) (hr : r * 5000 + 5000 ≤ 100000)
    (h0 : ∀ (p : Fin 5000) (k : Fin 64), x0 (ix2 p k) = X (ix2 (⟨r * 5000 + p.val, by have := p.isLt; omega⟩ : Fin 100000) k))
    (h1 : ∀ (k q : Fin 64), x1 (ix2 k q) = WT (ix2 k q))
    (p : Fin 5000) (q : Fin 64) :
    k0_pay1 (F := Ideal) x0 x1 (ix2 p q)
      = Spec.linear X WT (ix2 (⟨r * 5000 + p.val, by have := p.isLt; omega⟩ : Fin 100000) q) := by
  rw [Payload.linear_at, Spec.linear_apply]
  exact Finset.sum_congr rfl fun k _ => by rw [h0, h1]

/-- What grid point `t` of the first launch writes back is block `t` of the product of the two arrays as the launch
    finds them. -/
theorem flushed_linear (c : Dev nD) (t : Fin cfg0.N) :
    (dat0 V c).flushed 2 t
      = ((cfg0.win 2).blk t).view.read (Elt Ideal) (Spec.linear (φ := .bf16) (V c main_arg0) (V c main_v1)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx0 t
  funext j
  show k0_pay1 (iblk0 V c 0 t) (iblk0 V c 1 t) j
    = Spec.linear (φ := .bf16) (V c main_arg0) (V c main_v1) (((cfg0.win 2).blk t).view.emb j)
  have hj0 : (j 0).val < 5000 := (j 0).isLt
  have hj1 : (j 1).val < 64 := (j 1).isLt
  have ht : t.val < 20 := lt_of_lt_of_eq t.isLt N_0
  have hjq : j = ix2 (⟨(j 0).val, hj0⟩ : Fin 5000) (⟨(j 1).val, hj1⟩ : Fin 64) :=
    funext fun a => match a with | ⟨0, _⟩ => rfl | ⟨1, _⟩ => rfl
  have hemb : ((cfg0.win 2).blk t).view.emb j
      = ix2 (⟨t.val * 5000 + (j 0).val, by omega⟩ : Fin 100000) (⟨(j 1).val, hj1⟩ : Fin 64) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 64 + 1 * (j 1).val = (j 1).val; omega
  rw [hemb]
  refine (congrArg (k0_pay1 (iblk0 V c 0 t) (iblk0 V c 1 t)) hjq).trans ?_
  refine linear_block (V c main_arg0) (V c main_v1) (iblk0 V c 0 t) (iblk0 V c 1 t) t.val (by omega)
    (fun p k => ?_) (fun k q => ?_) ⟨(j 0).val, hj0⟩ ⟨(j 1).val, hj1⟩
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_v1 (((cfg0.win 1).blk t).view.emb (ix2 k q)) = _
    refine congrArg (V c main_v1) (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega

/-- An entry of the output array lies in point `t`'s block iff each coordinate lies in the block's range. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v2).slice (win0_2.rect t)).set ↔ _
  rw [View.set_slice_whole, Rect.mem_set_unit]
  exact Iff.rfl

/-- The 20 blocks of 5000 rows tile the 100000 rows: row r is in the block of point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, lt_of_lt_of_eq (by omega : (i 0).val / 5000 < 20) N_0.symm⟩, rfl⟩
  obtain ⟨e0, e1, e2, e3, e4, e5⟩ := idx0 t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the first launch its output array is the product of the feature array and the transposed-weights array as
    the launch found them. -/
theorem final (c : Dev nD) :
    (dat0 V c).arrAt 2 cfg0.N = Spec.linear (φ := .bf16) (V c main_arg0) (V c main_v1) :=
  (dat0 V c).arrAt_eq_of_cover 2 _ (fun t _ => flushed_linear V c t) cover

end Cert.KernelIdeal.Linear

end
-- ==== Proof.Fused.lean ====
/-
  The second launch: bias, residual and rectifier, block by block.

  The grid has 20 points; point t reads rows 5000·t … 5000·t + 4999 of the aggregated features and of the node
  features, and the one bias row, and writes max ((agg + bias) + x, 0) back as the same rows of the output. Each
  write-back is a block of ONE whole-array function of the three arrays as the launch finds them, and the blocks tile
  the output.
-/
import proofs.«113675_j52802327937707_1_alg».proof.Proof.Gen.KernelIdeal.Frame
import proofs.«113675_j52802327937707_1_alg».proof.Proof.Payload
import proofs.«113675_j52802327937707_1_alg».proof.Proof.Spec

set_option maxRecDepth 16384

noncomputable section

open scoped BigOperators

namespace Cert.KernelIdeal.Fused

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The second launch's index maps over its grid of 20 points: the aggregated features, the residual and the output
    are at block row `t`, the bias row's window stays at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A body's store at entry (p, q), when its aggregated and residual blocks are rows r·5000 … r·5000 + 4999 of `A` and
    `X` and its bias block is the one row of `B`, is entry (r·5000 + p, q) of `fused A X B`. -/
theorem fused_block (A X : FVec Ideal ⟨2, ![100000, 64]⟩ .f32) (B : FVec Ideal ⟨2, ![1, 64]⟩ .f32)
    (v0 : Vec Ideal S5000x64 .f32) (v2 : Vec Ideal S1x64 .f32) (v6 : Vec Ideal S5000x64 .f32)
    (r : Nat) (hr : r * 5000 + 5000 ≤ 100000)
    (h0 : ∀ (p : Fin 5000) (q : Fin 64), v0 (ix2 p q) = A (ix2 (⟨r * 5000 + p.val, by have := p.isLt; omega⟩ : Fin 100000) q))
    (h2 : ∀ (q : Fin 64), v2 (ix2 (0 : Fin 1) q) = B (ix2 (0 : Fin 1) q))
    (h6 : ∀ (p : Fin 5000) (q : Fin 64), v6 (ix2 p q) = X (ix2 (⟨r * 5000 + p.val, by have := p.isLt; omega⟩ : Fin 100000) q))
    (p : Fin 5000) (q : Fin 64) :
    k1_pay1 (F := Ideal) v0 v2 v6 (ix2 p q)
      = Spec.fused A X B (ix2 (⟨r * 5000 + p.val, by have := p.isLt; omega⟩ : Fin 100000) q) := by
  rw [Payload.fused_at, Spec.fused_apply, h0, h2, h6]

/-- What grid point `t` of the second launch writes back is block `t` of `fused` of the three arrays as the launch
    finds them. -/
theorem flushed_fused (c : Dev nD) (t : Fin cfg1.N) :
    (dat1 V c).flushed 3 t
      = ((cfg1.win 3).blk t).view.read (Elt Ideal) (Spec.fused (V c main_v45) (V c main_arg0) (V c main_v46)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz]
  obtain ⟨e0, e1, e2, e3, e4, e5, e6, e7⟩ := idx1 t
  funext j
  show k1_pay1 (iblk1 V c 0 t) (iblk1 V c 2 t) (iblk1 V c 1 t) j
    = Spec.fused (V c main_v45) (V c main_arg0) (V c main_v46) (((cfg1.win 3).blk t).view.emb j)
  have hj0 : (j 0).val < 5000 := (j 0).isLt
  have hj1 : (j 1).val < 64 := (j 1).isLt
  have ht : t.val < 20 := lt_of_lt_of_eq t.isLt N_1
  have hjq : j = ix2 (⟨(j 0).val, hj0⟩ : Fin 5000) (⟨(j 1).val, hj1⟩ : Fin 64) :=
    funext fun a => match a with | ⟨0, _⟩ => rfl | ⟨1, _⟩ => rfl
  have hemb : ((cfg1.win 3).blk t).view.emb j
      = ix2 (⟨t.val * 5000 + (j 0).val, by omega⟩ : Fin 100000) (⟨(j 1).val, hj1⟩ : Fin 64) := by
    funext a; apply Fin.ext
    match a with
    | ⟨0, _⟩ => show win1_3.index t (0 : Fin 2) * 5000 + 1 * (j 0).val = t.val * 5000 + (j 0).val; omega
    | ⟨1, _⟩ => show win1_3.index t (1 : Fin 2) * 64 + 1 * (j 1).val = (j 1).val; omega
  rw [hemb]
  refine (congrArg (k1_pay1 (iblk1 V c 0 t) (iblk1 V c 2 t) (iblk1 V c 1 t)) hjq).trans ?_
  refine fused_block (V c main_v45) (V c main_arg0) (V c main_v46) (iblk1 V c 0 t) (iblk1 V c 2 t) (iblk1 V c 1 t)
    t.val (by omega) (fun p q => ?_) (fun q => ?_) (fun p q => ?_) ⟨(j 0).val, hj0⟩ ⟨(j 1).val, hj1⟩
  · show V c main_v45 (((cfg1.win 0).blk t).view.emb (ix2 p q)) = _
    refine congrArg (V c main_v45) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  · show V c main_v46 (((cfg1.win 2).blk t).view.emb (ix2 (0 : Fin 1) q)) = _
    refine congrArg (V c main_v46) (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  · show V c main_arg0 (((cfg1.win 1).blk t).view.emb (ix2 p q)) = _
    refine congrArg (V c main_arg0) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * q.val = q.val; omega

/-- An entry of the output array lies in point `t`'s block iff each coordinate lies in the block's range. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v47).slice (win1_3.rect t)).set ↔ _
  rw [View.set_slice_whole, Rect.mem_set_unit]
  exact Iff.rfl

/-- The 20 blocks of 5000 rows tile the 100000 rows: row r is in the block of point r / 5000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, htv⟩ : ∃ t : Fin cfg1.N, t.val = (i 0).val / 5000 :=
    ⟨⟨(i 0).val / 5000, lt_of_lt_of_eq (by omega : (i 0).val / 5000 < 20) N_1.symm⟩, rfl⟩
  obtain ⟨e0, e1, e2, e3, e4, e5, e6, e7⟩ := idx1 t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- After the second launch its output array is `fused` of the aggregated features, the node features and the bias
    row as the launch found them. -/
theorem final (c : Dev nD) :
    (dat1 V c).arrAt 3 cfg1.N = Spec.fused (V c main_v45) (V c main_arg0) (V c main_v46) :=
  (dat1 V c).arrAt_eq_of_cover 3 _ (fun t _ => flushed_fused V c t) cover

end Cert.KernelIdeal.Fused

end
-- ==== Proof.AggK.lean ====
/-
  The part of the computation that both programs leave to the host and spell with the same operations: the graph
  aggregation between the linear transform and the fused bias / residual / rectifier. It is named here once, as a
  function of the transformed features and the edge list, over the idealized kernel's vocabulary, so that the
  comparison of the two programs never has to open it.
-/
import proofs.«113675_j52802327937707_1_alg».proof.Proof.Gen.KernelIdeal

set_option maxRecDepth 8192

noncomputable section

namespace Cert.KernelIdeal.Shared

open Cert.KernelIdeal Cert.KernelIdeal.Gen Idealize.ShloMosaic Idealize.ShloMosaic.TcCoe Idealize.SL.Sem Idealize.ShloMosaic.StableHlo

variable {F : FTy → Type} [FloatOps F]

/-- The normalized neighbourhood sum of a feature matrix `h` over the edge list `e` with a self-loop added at every
    node: with src = e[0] ++ (0 … n-1), dst = e[1] ++ (0 … n-1), deg the number of edges landing on each node, and
    dinv = deg^(-1/2) where deg > 0 and 0 elsewhere, row r of the result is the sum over the edges j with dst j = r
    of h[src j] · dinv[src j] · dinv[dst j] — the host's operations on the two arrays, in the program's order. -/
def aggregate (h : (⟨S100000x64, .f32⟩ : BufTy).Contents (Elt F)) (e : (⟨S2x800000, .i32⟩ : BufTy).Contents (Elt F)) :
    (⟨S100000x64, .f32⟩ : BufTy).Contents (Elt F) :=
  Host.scatterAdd scatter_S100000x64_S900000x1_S900000x64_1_0_0_1 (broadcastInDim S100000x64 ![] bcast_S_S100000x64 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (mulf (Host.gather gather_S100000x64_S900000x1_S900000x64_1_0_n_n_0_1_164 h (broadcastInDim S900000x1 ![0] bcast_S900000_S900000x1_0 (select (cmpi .slt (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 0#32))) (addi (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 100000#32))) (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0)))) (broadcastInDim S900000x64 ![0, 1] bcast_S900000x1_S900000x64_0_1 (broadcastInDim S900000x1 ![0] bcast_S900000_S900000x1_0 (mulf (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32)))) (broadcastInDim S100000 ![] bcast_S_S100000 (id (constant S_ .f32 0x00000000#32)))) (broadcastInDim S900000x1 ![0] bcast_S900000_S900000x1_0 (select (cmpi .slt (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 0#32))) (addi (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0) (broadcastInDim S900000 ![] bcast_S_S900000 (constantI S_ 32 100000#32))) (concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0)))) (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0)) (broadcastInDim S900000 ![] bcast_S_S900000 (constant S_ .f32 0x3F800000#32)))) (broadcastInDim S100000 ![] bcast_S_S100000 (id (constant S_ .f32 0x00000000#32)))) (broadcastInDim S900000x1 ![0] bcast_S900000_S900000x1_0 (select (cmpi .slt (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0) (broadcastInDim S900000 ![] bcast_S_S900000 (constantI S_ 32 0#32))) (addi (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0) (broadcastInDim S900000 ![] bcast_S_S900000 (constantI S_ 32 100000#32))) (concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0))))))))

end Cert.KernelIdeal.Shared

end
-- ==== Proof.Stretches.lean ====
/-
  The host's stretches of the idealized kernel's program, read at the buffers the two launches take.

  Before the first launch the host transposes the weights and rounds them to bf16 (the identity at the ideal values);
  the node features are untouched. Between the launches it computes the graph aggregation of the first launch's output
  over the edge list (`Shared.aggregate`: 57 operations, carried as one function and never opened) and views the bias
  vector as a one-row matrix; the node features and the edge list are still as launched.
-/
import proofs.«113675_j52802327937707_1_alg».proof.Proof.Gen.KernelIdeal.Frame
import proofs.«113675_j52802327937707_1_alg».proof.Proof.AggK
import Idealize.ShloMosaic.Lib.StableHlo.Run

set_option maxRecDepth 16384

noncomputable section

namespace Cert.KernelIdeal.Host

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen

variable {F : FTy → Type} [FloatOps F] (m : (ℓ : Loc nD τ sig) → Buf (Elt F) ℓ) (ρ : Dev nD → PrngReg)

/-! ## Before the first launch -/

/-- The first launch finds the node features as launched. -/
theorem entry0_x (c : Dev nD) : V1 m ρ c main_arg0 = m ((c : Thread nD τ).loc main_arg0) := by
  show StableHlo.after hostOps0 (W0 m ρ c) (Proc.devRef .tc main_arg0) = _
  dsimp only [hostOps0]
  after_results

/-- The first launch finds, in its weights window's array, the weights transposed (and rounded to bf16). -/
theorem entry0_wt (c : Dev nD) :
    V1 m ρ c main_v1 = (truncf (F := F) .bf16 (transpose S64x64 [1, 0] (m ((c : Thread nD τ).loc main_arg1)) transposes_S64x64_S64x64_1_0) bitsLt_bf16_f32 : FVec F S64x64 .bf16) := by
  show StableHlo.after hostOps0 (W0 m ρ c) (Proc.devRef .tc main_v1) = _
  dsimp only [hostOps0]
  after_results

/-! ## After the first launch -/

/-- The first launch's output buffer holds its output array after the write-backs. -/
theorem exit0_h (c : Dev nD) : W2 m ρ c (Proc.devRef .tc main_v2) = (dat0 (V1 m ρ) c).arrAt 2 cfg0.N :=
  W2_arr m ρ c 2

/-- The edge list is untouched by the first stretch and the first launch. -/
theorem exit0_e (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  dsimp only [hostOps0]
  after_results

/-- So is the bias vector. -/
theorem exit0_b (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results

/-! ## Between the launches -/

/-- The second launch finds the node features as launched: no host operation writes them, and the launch itself only
    reads them. -/
theorem entry1_x (c : Dev nD) : V5 m ρ c main_arg0 = m ((c : Thread nD τ).loc main_arg0) :=
  ((W6_arr m ρ c 1).trans (((dat1 (V5 m ρ) c).arrAt_in 1 rfl _).trans (A_eq1 (V5 m ρ) c 1))).symm.trans (W6_main_arg0 m ρ c)

set_option maxHeartbeats 4000000 in
/-- The second launch finds the bias vector viewed as a one-row matrix. -/
theorem entry1_b (c : Dev nD) :
    V5 m ρ c main_v46 = shapeCast S1x64 (W2 m ρ c (Proc.devRef .tc main_arg2)) shapeCasts_S64_S1x64 := by
  show StableHlo.after hostOps1_2 (StableHlo.after hostOps1_1 (StableHlo.after hostOps1 (W2 m ρ c))) (Proc.devRef .tc main_v46) = _
  generalize W2 m ρ c = W
  dsimp only [hostOps1, hostOps1_1, hostOps1_2]
  after_results_simp
  rfl

set_option maxHeartbeats 26000000 in
/-- The second launch finds, in its first window's array, the graph aggregation of the first launch's output over the
    edge list: the host's 57 operations between the launches, composed. -/
theorem entry1_agg (c : Dev nD) :
    V5 m ρ c main_v45
      = Shared.aggregate (W2 m ρ c (Proc.devRef .tc main_v2)) (W2 m ρ c (Proc.devRef .tc main_arg3)) := by
  show StableHlo.after hostOps1_2 (StableHlo.after hostOps1_1 (StableHlo.after hostOps1 (W2 m ρ c))) (Proc.devRef .tc main_v45) = _
  generalize W2 m ρ c = W
  dsimp only [hostOps1, hostOps1_1, hostOps1_2]
  after_results_simp
  unfold Shared.aggregate
  rfl

end Cert.KernelIdeal.Host

end
-- ==== Proof.KValue.lean ====
/-
  The idealized kernel's result as one function of its arguments.

  The second launch leaves `fused` of what it found: the aggregation of the first launch's output, the node features,
  the bias row. The first launch left `linear` of the node features and the transposed weights. Composing the reads of
  the host's stretches between them: the result is `fused (aggregate (linear x Wᵀ) e) x b`.
-/
import proofs.«113675_j52802327937707_1_alg».proof.Proof.Linear
import proofs.«113675_j52802327937707_1_alg».proof.Proof.Fused
import proofs.«113675_j52802327937707_1_alg».proof.Proof.Stretches

set_option maxRecDepth 16384

noncomputable section

namespace Cert.KernelIdeal.KValue

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The kernel's result as a function of the argument arrays. -/
def result (c : Dev nD) : FVec Ideal S100000x64 .f32 :=
  Spec.fused
    (Shared.aggregate
      (Spec.linear (φ := .bf16) (m ((c : Thread nD τ).loc main_arg0))
        (truncf (F := Ideal) .bf16 (transpose S64x64 [1, 0] (m ((c : Thread nD τ).loc main_arg1)) transposes_S64x64_S64x64_1_0) bitsLt_bf16_f32 : FVec Ideal S64x64 .bf16))
      (m ((c : Thread nD τ).loc main_arg3)))
    (m ((c : Thread nD τ).loc main_arg0))
    (shapeCast S1x64 (m ((c : Thread nD τ).loc main_arg2)) shapeCasts_S64_S1x64)

/-- What the second launch finds in its first window's array: the aggregation of the linear transform. -/
theorem agg_eq (c : Dev nD) :
    V5 m ρ c main_v45
      = Shared.aggregate
          (Spec.linear (φ := .bf16) (m ((c : Thread nD τ).loc main_arg0))
            (truncf (F := Ideal) .bf16 (transpose S64x64 [1, 0] (m ((c : Thread nD τ).loc main_arg1)) transposes_S64x64_S64x64_1_0) bitsLt_bf16_f32 : FVec Ideal S64x64 .bf16))
          (m ((c : Thread nD τ).loc main_arg3)) := by
  rw [Host.entry1_agg, Host.exit0_h, Host.exit0_e, Linear.final (V1 m ρ) c, Host.entry0_x, Host.entry0_wt]

/-- and in its bias window's array: the bias as a one-row matrix. -/
theorem bias_eq (c : Dev nD) :
    V5 m ρ c main_v46 = shapeCast S1x64 (m ((c : Thread nD τ).loc main_arg2)) shapeCasts_S64_S1x64 := by
  rw [Host.entry1_b, Host.exit0_b]

/-- The second launch's output array after its write-backs is `result`. -/
theorem result_eq (c : Dev nD) : (dat1 (V5 m ρ) c).arrAt 3 cfg1.N = result m c := by
  rw [Fused.final (V5 m ρ) c, agg_eq, Host.entry1_x, bias_eq]
  rfl

end Cert.KernelIdeal.KValue

end
-- ==== Proof.AggEq.lean ====
/-
  The graph aggregation is spelt over each program's own vocabulary (shape names, dimension records, side
  conditions); the two spellings are one function.
-/
import proofs.«113675_j52802327937707_1_alg».proof.Proof.AggK
import proofs.«113675_j52802327937707_1_alg».proof.Proof.AggR

set_option maxRecDepth 8192

noncomputable section

namespace Cert.Bridge

open Idealize.ShloMosaic

variable {F : FTy → Type} [FloatOps F]

/-- The reference's aggregation and the kernel's are the same function: the two vocabularies name the same shapes
    and the same dimension records. -/
theorem aggregate_eq (h : (⟨Cert.KernelIdeal.S100000x64, .f32⟩ : BufTy).Contents (Elt F))
    (e : (⟨Cert.KernelIdeal.S2x800000, .i32⟩ : BufTy).Contents (Elt F)) :
    Cert.ReferenceIdeal.Shared.aggregate (F := F) h e = Cert.KernelIdeal.Shared.aggregate (F := F) h e := rfl

end Cert.Bridge

end
-- ==== Proof.lean ====
/-
  A graph convolution layer: out = relu (Â · (x · Wᵀ) + b + x), with Â the symmetrically normalized adjacency with
  self-loops (100000 nodes, 64 features, 800000 edges).

  The kernel's program computes the linear transform x · Wᵀ in one tiled launch (20 blocks of 5000 rows, the weights
  transposed and rounded to bf16 on the host first), leaves the gather / scale / scatter-add aggregation to the host,
  and fuses bias, residual and rectifier in a second tiled launch. The reference does everything on the host. At the
  ideal values the rounding to bf16 is the identity, the launch's matrix product and the host's are the same sum over
  the contraction index, the aggregation is the same chain of host operations in both programs (carried as one
  function, never opened), and the fused step is the reference's last three operations entry by entry. So both
  results are `fused (aggregate (linear x Wᵀ) e) x b`; no step needs the inputs finite.

  The three frames: the kernel's two are its generated frame certificates; the reference's is its run with the result
  dropped. The ideal pass rewrote nothing, so there is nothing to preserve.
-/
import proofs.«113675_j52802327937707_1_alg».proof.Defs
import proofs.«113675_j52802327937707_1_alg».proof.Proof.Gen.Kernel
import proofs.«113675_j52802327937707_1_alg».proof.Proof.Gen.Kernel.Frame
import proofs.«113675_j52802327937707_1_alg».proof.Proof.Gen.KernelIdeal
import proofs.«113675_j52802327937707_1_alg».proof.Proof.Gen.KernelIdeal.Frame
import proofs.«113675_j52802327937707_1_alg».proof.Proof.Gen.ReferenceIdeal
import proofs.«113675_j52802327937707_1_alg».proof.Proof.Gen.Pre_finite_inputs
import proofs.«113675_j52802327937707_1_alg».proof.Proof.RefRun
import proofs.«113675_j52802327937707_1_alg».proof.Proof.RefValue
import proofs.«113675_j52802327937707_1_alg».proof.Proof.KRun
import proofs.«113675_j52802327937707_1_alg».proof.Proof.KValue
import proofs.«113675_j52802327937707_1_alg».proof.Proof.AggEq
import Idealize.ShloMosaic.Adequacy
import Idealize.ShloMosaic.Init

set_option maxRecDepth 16384

noncomputable section

namespace Cert.Proof

open Idealize.ShloMosaic Idealize.ShloMosaic.TcCoe Idealize.SL.Sem

/-- Rounding the transposed weights to bf16 changes nothing at the ideal values, and the two programs' vocabularies
    name the same transpose: the kernel's linear transform is the reference's. -/
theorem linear_eq (X : FVec Ideal Cert.KernelIdeal.S100000x64 .f32) (W : FVec Ideal Cert.KernelIdeal.S64x64 .f32) :
    Spec.linear (φ := .f32) X (transpose Cert.ReferenceIdeal.S64x64 [1, 0] W Cert.ReferenceIdeal.Gen.transposes_S64x64_S64x64_1_0)
      = Spec.linear (φ := .bf16) X
          (truncf (F := Ideal) .bf16 (transpose Cert.KernelIdeal.S64x64 [1, 0] W Cert.KernelIdeal.Gen.transposes_S64x64_S64x64_1_0)
            Cert.KernelIdeal.Gen.bitsLt_bf16_f32 : FVec Ideal Cert.KernelIdeal.S64x64 .bf16) := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Run from memories that agree on the arguments, both idealized programs end with the result
    `fused (aggregate (linear x Wᵀ) e) x b` of those arguments. -/
theorem algebraic : Cert.algebraic_KernelIdeal_ReferenceIdeal := by
  intro m ρ m' ρ' _ hagree
  refine ⟨fun c => Cert.KernelIdeal.KValue.result m c, ?_, ?_⟩
  · exact (θ_run Cert.KernelIdeal.defs _ _).mono
      (fun r h c => ⟨(h c).1.trans (Cert.KernelIdeal.KValue.result_eq m ρ c), (h c).2⟩)
      (Cert.KernelIdeal.Named.run m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq m' c Cert.KernelIdeal.Gen.shapeCasts_S64_S1x64,
      (hagree c).1, (hagree c).2.1, (hagree c).2.2.1, (hagree c).2.2.2, linear_eq, Cert.Bridge.aggregate_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
